-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S2x4096x1024 : Shape := ⟨3, ![2, 4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2x4096x1024 : S_.BroadcastsInDim S2x4096x1024 (![] : Fin 0 → Fin S2x4096x1024.rank)
  reducesTo_S2x4096x1024_S_d0_1_2 : S2x4096x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1024x1024 .f32) (main_arg12 : FVec F S1024x1024 .f32) (main_arg13 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_v63 main_v67

def fn_part2 {F : FTy → Type} [FloatOps F] (main_arg7 : FVec F S1024 .f32) (main_arg8 : FVec F S1024x1024 .f32) (main_arg9 : FVec F S1024x1024 .f32) (main_arg10 : FVec F S1024 .f32) (main_arg11 : FVec F S1024x1024 .f32) (main_arg12 : FVec F S1024x1024 .f32) (main_arg13 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_v48 main_v49 main_v50

def fn_part1 {F : FTy → Type} [FloatOps F] (main_arg4 : FVec F S1024 .f32) (main_arg5 : FVec F S1024x1024 .f32) (main_arg6 : FVec F S1024x1024 .f32) (main_arg7 : FVec F S1024 .f32) (main_arg8 : FVec F S1024x1024 .f32) (main_arg9 : FVec F S1024x1024 .f32) (main_arg10 : FVec F S1024 .f32) (main_arg11 : FVec F S1024x1024 .f32) (main_arg12 : FVec F S1024x1024 .f32) (main_arg13 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S4096x1024 .f32) (main_arg1 : FVec F S2x4096x1024 .f32) (main_arg2 : FVec F S1024x1024 .f32) (main_arg3 : FVec F S1024x1024 .f32) (main_arg4 : FVec F S1024 .f32) (main_arg5 : FVec F S1024x1024 .f32) (main_arg6 : FVec F S1024x1024 .f32) (main_arg7 : FVec F S1024 .f32) (main_arg8 : FVec F S1024x1024 .f32) (main_arg9 : FVec F S1024x1024 .f32) (main_arg10 : FVec F S1024 .f32) (main_arg11 : FVec F S1024x1024 .f32) (main_arg12 : FVec F S1024x1024 .f32) (main_arg13 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S2x4096x1024 .f32 := Host.absf main_arg1
  let main_cst_0 : FVec F S_ .f32 := constant S_ .f32 0x7F800000#32
  let main_v5 : FVec F S2x4096x1024 .f32 := broadcastInDim S2x4096x1024 ![] bcast_S_S2x4096x1024 main_cst_0
  let main_v6 : IVec S2x4096x1024 1 := cmpf .olt main_v4 main_v5
  let main_c_1 : IVec S_ 1 := constantI S_ 1 1#1
  let main_v7 : IVec S_ 1 := (fun x v => Host.reduce IntOp.andi x v reducesTo_S2x4096x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_v13 main_v16
-- ==== Kernel.lean ====
abbrev S4096x1024 : Shape := ⟨2, ![4096, 1024]⟩
abbrev S2x4096x1024 : Shape := ⟨3, ![2, 4096, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S1x4096 : Shape := ⟨2, ![1, 4096]⟩
abbrev S256x1024 : Shape := ⟨2, ![256, 1024]⟩
abbrev S2x256x1024 : Shape := ⟨3, ![2, 256, 1024]⟩
abbrev S1x256x1024 : Shape := ⟨3, ![1, 256, 1024]⟩
abbrev S256x4096 : Shape := ⟨2, ![256, 4096]⟩

abbrev nBuf : Space → Nat
  | .hbm => 21
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S2x4096x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024x1024, .f32⟩
  | .hbm, ⟨13, _⟩ => ⟨S1024, .f32⟩
  | .hbm, ⟨14, _⟩ => ⟨S1024x4096, .f32⟩
  | .hbm, ⟨15, _⟩ => ⟨S1024x4096, .bf16⟩
  | .hbm, ⟨16, _⟩ => ⟨S1024x4096, .f32⟩
  | .hbm, ⟨17, _⟩ => ⟨S1024x4096, .bf16⟩
  | .hbm, ⟨18, _⟩ => ⟨S4096, .f32⟩
  | .hbm, ⟨19, _⟩ => ⟨S1x4096, .f32⟩
  | .hbm, ⟨20, _⟩ => ⟨S2x4096x1024, .f32⟩
  | .local _ .vmem, ⟨0, _⟩ => ⟨S256x1024, .f32⟩
  | .local _ .vmem, ⟨1, _⟩ => ⟨S256x1024, .f32⟩
  | .local _ .vmem, ⟨2, _⟩ => ⟨S2x256x1024, .f32⟩
  | .local _ .vmem, ⟨3, _⟩ => ⟨S2x256x1024, .f32⟩
  | .local _ .vmem, ⟨4, _⟩ => ⟨S1024x4096, .bf16⟩
  | .local _ .vmem, ⟨5, _⟩ => ⟨S1024x4096, .bf16⟩
  | .local _ .vmem, ⟨6, _⟩ => ⟨S1x4096, .f32⟩
  | .local _ .vmem, ⟨7, _⟩ => ⟨S2x256x1024, .f32⟩
  | .local _ .vmem, ⟨8, _⟩ => ⟨S2x256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  concatenates_S1024x1024_S1024x1024_S1024x1024_S1024x1024_S1024x4096_d1 : Shape.Concatenates [S1024x1024, S1024x1024, S1024x1024, S1024x1024] S1024x4096 1
  bitsLt_bf16_f32 : FTy.bits .bf16 < FTy.bits .f32
  concatenates_S1024_S1024_S1024_S1024_S4096_d0 : Shape.Concatenates [S1024, S1024, S1024, S1024] S4096 0
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  inb_S2x256x1024_S1x256x1024_0_0_0 : ∀ a, (![0, 0, 0] : Fin 3 → Nat) a + S1x256x1024.size a ≤ S2x256x1024.size a
  h_S1x256x1024 : 0 < S1x256x1024.numel
  shapeCasts_S1x256x1024_S256x1024 : S1x256x1024.ShapeCasts S256x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  inb_S2x256x1024_S1x256x1024_1_0_0 : ∀ a, (![1, 0, 0] : Fin 3 → Nat) a + S1x256x1024.size a ≤ S2x256x1024.size a
  shapeCasts_S256x1024_S1x256x1024 : S256x1024.ShapeCasts S1x256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x256x1024.size a ≤ S2x4096x1024.size a
  hwx0_1 : ∀ i : grid0.Coords, EltTy.bits .f32 = 32 ∨ (Rect.block (s := S2x4096x1024) S2x256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x4096.size a ≤ S1024x4096.size a
  hwx0_2 : ∀ i : grid0.Coords, EltTy.bits .bf16 = 32 ∨ (Rect.block (s := S1024x4096) S1024x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x256x1024.size a ≤ S2x4096x1024.size a
  hwx0_5 : ∀ i : grid0.Coords, EltTy.bits .f32 = 32 ∨ (Rect.block (s := S2x4096x1024) S2x256x1024.size (cc0_transform_5 i) (hinb0_5 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S2x256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S2x4096x1024 : Shape := ⟨3, ![2, 4096, 1024]⟩
abbrev S1024x1024 : Shape := ⟨2, ![1024, 1024]⟩
abbrev S1024 : Shape := ⟨1, ![1024]⟩
abbrev S1x4096x1024 : Shape := ⟨3, ![1, 4096, 1024]⟩
abbrev S1024x4096 : Shape := ⟨2, ![1024, 4096]⟩
abbrev S4096 : Shape := ⟨1, ![4096]⟩
abbrev S4096x4096 : Shape := ⟨2, ![4096, 4096]⟩
abbrev S1x4096 : Shape := ⟨2, ![1, 4096]⟩
abbrev S_ : Shape := ⟨0, ![]⟩

abbrev nBuf : Space → Nat
  | .hbm => 64
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x4096x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024x1024, .f32⟩
  | .hbm, ⟨13, _⟩ => ⟨S1024, .f32⟩
  | .hbm, ⟨14, _⟩ => ⟨S1x4096x1024, .f32⟩
  | .hbm, ⟨15, _⟩ => ⟨S4096x1024, .f32⟩
  | .hbm, ⟨16, _⟩ => ⟨S1x4096x1024, .f32⟩
  | .hbm, ⟨17, _⟩ => ⟨S4096x1024, .f32⟩
  | .hbm, ⟨18, _⟩ => ⟨S1024x4096, .f32⟩
  | .hbm, ⟨19, _⟩ => ⟨S1024x4096, .f32⟩
  | .hbm, ⟨20, _⟩ => ⟨S4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S1x4096, .f32⟩
  | .hbm, ⟨25, _⟩ => ⟨S4096x4096, .f32⟩
  | .hbm, ⟨26, _⟩ => ⟨S4096x4096, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S1x4096x1024, .f32⟩
  | .hbm, ⟨62, _⟩ => ⟨S1x4096x1024, .f32⟩
  | .hbm, ⟨63, _⟩ => ⟨S2x4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_v17 : Ref sig .tc := ⟨.hbm, 32, rfl⟩
abbrev main_cst_0 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_1 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩

abbrev nD : Nat := 1
abbrev τ : Topo := Topo.v7x

variable {F : FTy → Type} [FloatOps F]

class Facts₀ : Prop where
  slices_S2x4096x1024_S1x4096x1024_0_0_0 : S2x4096x1024.Slices ![0, 0, 0] S1x4096x1024
  shapeCasts_S1x4096x1024_S4096x1024 : S1x4096x1024.ShapeCasts S4096x1024
  slices_S2x4096x1024_S1x4096x1024_1_0_0 : S2x4096x1024.Slices ![1, 0, 0] S1x4096x1024
  concatenates_S1024x1024_S1024x1024_S1024x1024_S1024x1024_S1024x4096_d1 : Shape.Concatenates [S1024x1024, S1024x1024, S1024x1024, S1024x1024] S1024x4096 1
  concatenates_S1024_S1024_S1024_S1024_S4096_d0 : Shape.Concatenates [S1024, S1024, S1024, S1024] S4096 0
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  bcast_S_S4096x1024 : S_.BroadcastsInDim S4096x1024 (![] : Fin 0 → Fin S4096x1024.rank)
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S4096x1024_S1x4096x1024_1_2 : S4096x1024.BroadcastsInDim S1x4096x1024 (![1, 2] : Fin 2 → Fin S1x4096x1024.rank)
  concatenates_S1x4096x1024_S1x4096x1024_S2x4096x1024_d0 : Shape.Concatenates [S1x4096x1024, S1x4096x1024] S2x4096x1024 0
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.KernelFrame.lean ====
/-
  The kernel's run at the word level, part 1: the program up to its region, the windows' blocks, and what one grid point leaves in the output block (the new hidden state h = o * tanh c in half 0, the new cell state c = f * c_prev + i * g in half 1, from a 256-row block of x, the matching rows of the memory, the two fused weight matrices and the fused bias row).
-/
import proofs.«105680_j39101382263299_2_alg».proof.Proof.Gen.Kernel.Launch
import proofs.«105680_j39101382263299_2_alg».proof.Proof.Gen.Kernel.Skeleton
import proofs.«105680_j39101382263299_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its one region -/

/-- What core `c`'s buffers hold when the region is entered: the launch contents after the six host
    operations (the three concatenations, the two format changes, the reshape). -/
abbrev V (c : Dev nD) (b : Ref sig .tc) : Buf (Elt F) ((c : Thread nD τ).loc b) :=
  StableHlo.after hostOps0 (fun b => m (c, b)) b

/-- None of the six host operations allocates. -/
theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations write only the six intermediate arrays: an argument array is found as launched. -/
theorem V_arg (c : Dev nD) (b : Ref sig .tc)
    (hb : b ≠ main_v0 ∧ b ≠ main_v1 ∧ b ≠ main_v2 ∧ b ≠ main_v3 ∧ b ≠ main_v4 ∧ b ≠ main_v5) :
    V m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.reshape_writes, Finset.mem_singleton]
    exact ⟨StableHlo.devRef_ne_of_ne hb.1, StableHlo.devRef_ne_of_ne hb.2.1, StableHlo.devRef_ne_of_ne hb.2.2.1,
      StableHlo.devRef_ne_of_ne hb.2.2.2.1, StableHlo.devRef_ne_of_ne hb.2.2.2.2.1, StableHlo.devRef_ne_of_ne hb.2.2.2.2.2⟩))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetches it
    or not (an unfetched window's block index has not moved): for any proof data over the region-entry arrays
    whose body leaves the block in place. One statement per input window. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's rectangles -/

/-- The whole x block, the two halves (previous hidden state, previous cell state) of the memory block and of
    the output block, a whole weight block, the whole bias row. -/
abbrev rX : Rect S256x1024 := Rect.unit (s := S256x1024) ![0, 0] S256x1024.size inb_S256x1024_S256x1024_0_0
abbrev rH : Rect S2x256x1024 := Rect.unit (s := S2x256x1024) ![0, 0, 0] S1x256x1024.size inb_S2x256x1024_S1x256x1024_0_0_0
abbrev rC : Rect S2x256x1024 := Rect.unit (s := S2x256x1024) ![1, 0, 0] S1x256x1024.size inb_S2x256x1024_S1x256x1024_1_0_0
abbrev rW : Rect S1024x4096 := Rect.unit (s := S1024x4096) ![0, 0] S1024x4096.size inb_S1024x4096_S1024x4096_0_0
abbrev rB : Rect S1x4096 := Rect.unit (s := S1x4096) ![0, 0] S1x4096.size inb_S1x4096_S1x4096_0_0

/-! ## What the body leaves in the output block -/

/-- The output block after the body, from the five input blocks: the new cell state in half 1 (stored
    last), the new hidden state in half 0. -/
def outBlk (x0 : Vec F S256x1024 .f32) (x1 : Vec F S2x256x1024 .f32) (x2 x3 : Vec F S1024x4096 .bf16) (x4 : Vec F S1x4096 .f32) :
    Vec F S2x256x1024 .f32 :=
  View.canon [⟨rC, k0_pay1 (k0_pay3 (View.ld x0 rX) (View.ld x1 rH) (View.ld x2 rW) (View.ld x3 rW) (View.ld x4 rB) (View.ld x1 rC))⟩,
    ⟨rH, k0_pay4 (View.ld x0 rX) (View.ld x1 rH) (View.ld x2 rW) (View.ld x3 rW) (View.ld x4 rB) (View.ld x1 rC)⟩]

/-- The two halves tile the block. -/
theorem outBlk_cover (p0 p1 : Vec F S1x256x1024 .f32) (y : S2x256x1024.Idx) :
    ∃ pc ∈ ([⟨rC, p0⟩, ⟨rH, p1⟩] : List (View.Piece (Elt F) S2x256x1024 .f32)), y ∈ pc.1.set :=
  View.cover_of_tiled [⟨rC, p0⟩, ⟨rH, p1⟩] S1x256x1024.size (by rfl) y

end Cert.Kernel.Frm

end
-- ==== Proof.KernelBody.lean ====
/-
  The body's triple: run on whole staging buffers — the five inputs at known contents, the output at anything — the body ends with the inputs as they were and the output block at the two stored halves. The two loads of the output block that the body makes before each store are dead: their values reach no store.
-/
import proofs.«105680_j39101382263299_2_alg».proof.Proof.KernelFrame

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The kernel body on whole staging buffers. -/
theorem sound_kernel (c : Dev nD) (E : Set ℕ) (i : grid0.Coords)
    (arg1 : Memref sig .tc .vmem S256x1024 .f32) (harg1 : arg1.IsWhole) (arg2 : Memref sig .tc .vmem S2x256x1024 .f32) (harg2 : arg2.IsWhole)
    (arg3 : Memref sig .tc .vmem S1024x4096 .bf16) (harg3 : arg3.IsWhole) (arg4 : Memref sig .tc .vmem S1024x4096 .bf16) (harg4 : arg4.IsWhole)
    (arg5 : Memref sig .tc .vmem S1x4096 .f32) (harg5 : arg5.IsWhole) (arg6 : Memref sig .tc .vmem S2x256x1024 .f32) (harg6 : arg6.IsWhole)
    (x0 : Vec F S256x1024 .f32) (x1 : Vec F S2x256x1024 .f32) (x2 x3 : Vec F S1024x4096 .bf16) (x4 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlk x0 x1 x2 x3 x4)) -∗ K ⟨⟩))
      ⊢ wp frame (wpE (defs₀ (F := F)) Variants.none c none) E (cc0__lstm_kernel i arg1 harg1 arg2 harg2 arg3 harg3 arg4 harg4 arg5 harg5 arg6 harg6) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (outBlk_cover _ _)

end Cert.Kernel.Frm

end
-- ==== Proof.KernelRun.lean ====
/-
  The run: the proof data of the one pipeline (after the body at a grid point each input's buffer holds its block, the output's the two stored halves), the body obligation at a generic point, the run of the whole program to the post that names every array of the pipeline, and the frame: every argument array ends as launched (x and the memory are staged and never written back; the weights and biases bypass the region, and no host operation writes them).
-/
import proofs.«105680_j39101382263299_2_alg».proof.Proof.KernelBody

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the region finds them; after the body at point `t` each input's buffer at
    its block and the output's at `outBlk` of the input blocks; the region's invariant (its scoped rest and the generator register, untouched); full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = outBlk (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the
    invariant and the core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final
    state has every array of the pipeline at what the proof data computes and every other unscoped buffer as
    the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- An input window's array after the run is the argument as launched: staged, never written back, and written
    by no host operation. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_arg m c main_arg0 (by decide))))
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_arg m c main_arg1 (by decide))))

/-- Every argument array after the run is as launched. -/
theorem kept_args (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  ⟨kept_main_arg0 m r h c, kept_main_arg1 m r h c,
    ((h c).2 main_arg2 (Pipeline.mem_restRefs_of main_arg2 (by decide) (by decide))).trans (V_arg m c main_arg2 (by decide)),
    ((h c).2 main_arg3 (Pipeline.mem_restRefs_of main_arg3 (by decide) (by decide))).trans (V_arg m c main_arg3 (by decide)),
    ((h c).2 main_arg4 (Pipeline.mem_restRefs_of main_arg4 (by decide) (by decide))).trans (V_arg m c main_arg4 (by decide)),
    ((h c).2 main_arg5 (Pipeline.mem_restRefs_of main_arg5 (by decide) (by decide))).trans (V_arg m c main_arg5 (by decide)),
    ((h c).2 main_arg6 (Pipeline.mem_restRefs_of main_arg6 (by decide) (by decide))).trans (V_arg m c main_arg6 (by decide)),
    ((h c).2 main_arg7 (Pipeline.mem_restRefs_of main_arg7 (by decide) (by decide))).trans (V_arg m c main_arg7 (by decide)),
    ((h c).2 main_arg8 (Pipeline.mem_restRefs_of main_arg8 (by decide) (by decide))).trans (V_arg m c main_arg8 (by decide)),
    ((h c).2 main_arg9 (Pipeline.mem_restRefs_of main_arg9 (by decide) (by decide))).trans (V_arg m c main_arg9 (by decide)),
    ((h c).2 main_arg10 (Pipeline.mem_restRefs_of main_arg10 (by decide) (by decide))).trans (V_arg m c main_arg10 (by decide)),
    ((h c).2 main_arg11 (Pipeline.mem_restRefs_of main_arg11 (by decide) (by decide))).trans (V_arg m c main_arg11 (by decide)),
    ((h c).2 main_arg12 (Pipeline.mem_restRefs_of main_arg12 (by decide) (by decide))).trans (V_arg m c main_arg12 (by decide)),
    ((h c).2 main_arg13 (Pipeline.mem_restRefs_of main_arg13 (by decide) (by decide))).trans (V_arg m c main_arg13 (by decide))⟩

/-- The output array after the run is what the proof data computes. -/
theorem post_out (r : PUnit × MemSt nD τ sig (Elt F)) (h : Pipeline.FramePost cfgs (dats m) 0 (V m) r) (c : Dev nD) :
    r.2.mem ((c : Thread nD τ).loc main_v6) = (dats m 0 c).arrAt 5 cfg0.N :=
  (h c).1 5

/-- THE FRAME: the program runs to the end, faults nowhere, and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => kept_args m r h c) (run_main m ρ)

end Cert.Kernel.Frm

end
-- ==== Proof.IdealFrame.lean ====
/-
  The idealized kernel's run, part 1: the program up to its region, the windows' blocks, and what one grid point leaves in the output block (the new hidden state h = o * tanh c in half 0, the new cell state c = f * c_prev + i * g in half 1, from a 256-row block of x, the matching rows of the memory, the two fused weight matrices and the fused bias row).
-/
import proofs.«105680_j39101382263299_2_alg».proof.Proof.Gen.KernelIdeal.Launch
import proofs.«105680_j39101382263299_2_alg».proof.Proof.Gen.KernelIdeal.Skeleton
import proofs.«105680_j39101382263299_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its one region -/

/-- What core `c`'s buffers hold when the region is entered: the launch contents after the six host
    operations (the three concatenations, the two format changes, the reshape). -/
abbrev V (c : Dev nD) (b : Ref sig .tc) : Buf (Elt F) ((c : Thread nD τ).loc b) :=
  StableHlo.after hostOps0 (fun b => m (c, b)) b

/-- None of the six host operations allocates. -/
theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations write only the six intermediate arrays: an argument array is found as launched. -/
theorem V_arg (c : Dev nD) (b : Ref sig .tc)
    (hb : b ≠ main_v0 ∧ b ≠ main_v1 ∧ b ≠ main_v2 ∧ b ≠ main_v3 ∧ b ≠ main_v4 ∧ b ≠ main_v5) :
    V m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.reshape_writes, Finset.mem_singleton]
    exact ⟨StableHlo.devRef_ne_of_ne hb.1, StableHlo.devRef_ne_of_ne hb.2.1, StableHlo.devRef_ne_of_ne hb.2.2.1,
      StableHlo.devRef_ne_of_ne hb.2.2.2.1, StableHlo.devRef_ne_of_ne hb.2.2.2.2.1, StableHlo.devRef_ne_of_ne hb.2.2.2.2.2⟩))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetches it
    or not (an unfetched window's block index has not moved): for any proof data over the region-entry arrays
    whose body leaves the block in place. One statement per input window. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's rectangles -/

/-- The whole x block, the two halves (previous hidden state, previous cell state) of the memory block and of
    the output block, a whole weight block, the whole bias row. -/
abbrev rX : Rect S256x1024 := Rect.unit (s := S256x1024) ![0, 0] S256x1024.size inb_S256x1024_S256x1024_0_0
abbrev rH : Rect S2x256x1024 := Rect.unit (s := S2x256x1024) ![0, 0, 0] S1x256x1024.size inb_S2x256x1024_S1x256x1024_0_0_0
abbrev rC : Rect S2x256x1024 := Rect.unit (s := S2x256x1024) ![1, 0, 0] S1x256x1024.size inb_S2x256x1024_S1x256x1024_1_0_0
abbrev rW : Rect S1024x4096 := Rect.unit (s := S1024x4096) ![0, 0] S1024x4096.size inb_S1024x4096_S1024x4096_0_0
abbrev rB : Rect S1x4096 := Rect.unit (s := S1x4096) ![0, 0] S1x4096.size inb_S1x4096_S1x4096_0_0

/-! ## What the body leaves in the output block -/

/-- The output block after the body, from the five input blocks: the new cell state in half 1 (stored
    last), the new hidden state in half 0. -/
def outBlk (x0 : Vec F S256x1024 .f32) (x1 : Vec F S2x256x1024 .f32) (x2 x3 : Vec F S1024x4096 .bf16) (x4 : Vec F S1x4096 .f32) :
    Vec F S2x256x1024 .f32 :=
  View.canon [⟨rC, k0_pay1 (k0_pay3 (View.ld x0 rX) (View.ld x1 rH) (View.ld x2 rW) (View.ld x3 rW) (View.ld x4 rB) (View.ld x1 rC))⟩,
    ⟨rH, k0_pay4 (View.ld x0 rX) (View.ld x1 rH) (View.ld x2 rW) (View.ld x3 rW) (View.ld x4 rB) (View.ld x1 rC)⟩]

/-- The two halves tile the block. -/
theorem outBlk_cover (p0 p1 : Vec F S1x256x1024 .f32) (y : S2x256x1024.Idx) :
    ∃ pc ∈ ([⟨rC, p0⟩, ⟨rH, p1⟩] : List (View.Piece (Elt F) S2x256x1024 .f32)), y ∈ pc.1.set :=
  View.cover_of_tiled [⟨rC, p0⟩, ⟨rH, p1⟩] S1x256x1024.size (by rfl) y

end Cert.KernelIdeal.Frm

end
-- ==== Proof.IdealBody.lean ====
/-
  The body's triple: run on whole staging buffers — the five inputs at known contents, the output at anything — the body ends with the inputs as they were and the output block at the two stored halves. The two loads of the output block that the body makes before each store are dead: their values reach no store.
-/
import proofs.«105680_j39101382263299_2_alg».proof.Proof.IdealFrame

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The kernel body on whole staging buffers. -/
theorem sound_kernel (c : Dev nD) (E : Set ℕ) (i : grid0.Coords)
    (arg1 : Memref sig .tc .vmem S256x1024 .f32) (harg1 : arg1.IsWhole) (arg2 : Memref sig .tc .vmem S2x256x1024 .f32) (harg2 : arg2.IsWhole)
    (arg3 : Memref sig .tc .vmem S1024x4096 .bf16) (harg3 : arg3.IsWhole) (arg4 : Memref sig .tc .vmem S1024x4096 .bf16) (harg4 : arg4.IsWhole)
    (arg5 : Memref sig .tc .vmem S1x4096 .f32) (harg5 : arg5.IsWhole) (arg6 : Memref sig .tc .vmem S2x256x1024 .f32) (harg6 : arg6.IsWhole)
    (x0 : Vec F S256x1024 .f32) (x1 : Vec F S2x256x1024 .f32) (x2 x3 : Vec F S1024x4096 .bf16) (x4 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlk x0 x1 x2 x3 x4)) -∗ K ⟨⟩))
      ⊢ wp frame (wpE (defs₀ (F := F)) Variants.none c none) E (cc0__lstm_kernel i arg1 harg1 arg2 harg2 arg3 harg3 arg4 harg4 arg5 harg5 arg6 harg6) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (outBlk_cover _ _)

end Cert.KernelIdeal.Frm

end
-- ==== Proof.IdealRun.lean ====
/-
  The run: the proof data of the one pipeline (after the body at a grid point each input's buffer holds its block, the output's the two stored halves), the body obligation at a generic point, the run of the whole program to the post that names every array of the pipeline, and the frame: every argument array ends as launched (x and the memory are staged and never written back; the weights and biases bypass the region, and no host operation writes them).
-/
import proofs.«105680_j39101382263299_2_alg».proof.Proof.IdealBody

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the region finds them; after the body at point `t` each input's buffer at
    its block and the output's at `outBlk` of the input blocks; the region's invariant (its scoped rest and the generator register, untouched); full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = outBlk (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the
    invariant and the core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final
    state has every array of the pipeline at what the proof data computes and every other unscoped buffer as
    the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- An input window's array after the run is the argument as launched: staged, never written back, and written
    by no host operation. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_arg m c main_arg0 (by decide))))
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_arg m c main_arg1 (by decide))))

/-- Every argument array after the run is as launched. -/
theorem kept_args (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  ⟨kept_main_arg0 m r h c, kept_main_arg1 m r h c,
    ((h c).2 main_arg2 (Pipeline.mem_restRefs_of main_arg2 (by decide) (by decide))).trans (V_arg m c main_arg2 (by decide)),
    ((h c).2 main_arg3 (Pipeline.mem_restRefs_of main_arg3 (by decide) (by decide))).trans (V_arg m c main_arg3 (by decide)),
    ((h c).2 main_arg4 (Pipeline.mem_restRefs_of main_arg4 (by decide) (by decide))).trans (V_arg m c main_arg4 (by decide)),
    ((h c).2 main_arg5 (Pipeline.mem_restRefs_of main_arg5 (by decide) (by decide))).trans (V_arg m c main_arg5 (by decide)),
    ((h c).2 main_arg6 (Pipeline.mem_restRefs_of main_arg6 (by decide) (by decide))).trans (V_arg m c main_arg6 (by decide)),
    ((h c).2 main_arg7 (Pipeline.mem_restRefs_of main_arg7 (by decide) (by decide))).trans (V_arg m c main_arg7 (by decide)),
    ((h c).2 main_arg8 (Pipeline.mem_restRefs_of main_arg8 (by decide) (by decide))).trans (V_arg m c main_arg8 (by decide)),
    ((h c).2 main_arg9 (Pipeline.mem_restRefs_of main_arg9 (by decide) (by decide))).trans (V_arg m c main_arg9 (by decide)),
    ((h c).2 main_arg10 (Pipeline.mem_restRefs_of main_arg10 (by decide) (by decide))).trans (V_arg m c main_arg10 (by decide)),
    ((h c).2 main_arg11 (Pipeline.mem_restRefs_of main_arg11 (by decide) (by decide))).trans (V_arg m c main_arg11 (by decide)),
    ((h c).2 main_arg12 (Pipeline.mem_restRefs_of main_arg12 (by decide) (by decide))).trans (V_arg m c main_arg12 (by decide)),
    ((h c).2 main_arg13 (Pipeline.mem_restRefs_of main_arg13 (by decide) (by decide))).trans (V_arg m c main_arg13 (by decide))⟩

/-- The output array after the run is what the proof data computes. -/
theorem post_out (r : PUnit × MemSt nD τ sig (Elt F)) (h : Pipeline.FramePost cfgs (dats m) 0 (V m) r) (c : Dev nD) :
    r.2.mem ((c : Thread nD τ).loc main_v6) = (dats m 0 c).arrAt 5 cfg0.N :=
  (h c).1 5

/-- THE FRAME: the program runs to the end, faults nowhere, and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => kept_args m r h c) (run_main m ρ)

end Cert.KernelIdeal.Frm

end
-- ==== Proof.Spec.lean ====
/-
  One step of an LSTM cell, row by row, on the extended reals.

  A row of the batch has an input row `xr`, a previous hidden row `hr` and a previous cell row `cr`
  (1024 entries each). With the four gates' weight matrices laid side by side as `W`, `U` (1024 × 4096) and
  their biases end to end as `b` (4096), the pre-activations are
      gate n = (Σ_k xr k · W k n + Σ_k hr k · U k n) + b n,
  columns 0–1023 the input gate, 1024–2047 the forget gate, 2048–3071 the output gate, 3072–4095 the candidate.
  The new cell state is  σ(forget) · cr + σ(input) · tanh(candidate),  the new hidden state
  σ(output) · tanh(new cell), with σ x = 1 / (1 + e^(−x)).  No law of arithmetic is used beyond reading each
  operation at an index, so nothing here asks the entries to be finite.
-/
import Idealize.ShloMosaic.PureOps.Ideal
import Idealize.ShloMosaic.Lib.ValueIdx

noncomputable section

namespace Cert.Lstm

open Idealize.ShloMosaic Idealize.ShloMosaic.ValueIdx
open scoped BigOperators

/-- Column `j` of gate `q` among the 4096 fused columns. -/
def col (q : Fin 4) (j : Fin 1024) : Fin 4096 := ⟨q.val * 1024 + j.val, by have := q.isLt; have := j.isLt; omega⟩

theorem col_val (q : Fin 4) (j : Fin 1024) : (col q j).val = q.val * 1024 + j.val := rfl

/-- The pre-activation at fused column `n`. -/
def gate (xr hr : Fin 1024 → EReal) (W U : (⟨2, ![1024, 4096]⟩ : Shape).Idx → EReal) (b : Fin 4096 → EReal) (n : Fin 4096) : EReal :=
  ((∑ k : Fin 1024, xr k * W (ix2 k n)) + ∑ k : Fin 1024, hr k * U (ix2 k n)) + b n

/-- The new cell state at column `j`. -/
def newCell (xr hr cr : Fin 1024 → EReal) (W U : (⟨2, ![1024, 4096]⟩ : Shape).Idx → EReal) (b : Fin 4096 → EReal) (j : Fin 1024) : EReal :=
  Ideal.logistic (gate xr hr W U b (col 1 j)) * cr j
    + Ideal.logistic (gate xr hr W U b (col 0 j)) * Ideal.tanh (gate xr hr W U b (col 3 j))

/-- The new hidden state at column `j`. -/
def newHidden (xr hr cr : Fin 1024 → EReal) (W U : (⟨2, ![1024, 4096]⟩ : Shape).Idx → EReal) (b : Fin 4096 → EReal) (j : Fin 1024) : EReal :=
  Ideal.logistic (gate xr hr W U b (col 2 j)) * Ideal.tanh (newCell xr hr cr W U b j)

/-- The step on whole arrays: from `x` (4096 × 1024) and the memory `hm` (its half 0 the hidden state, its half 1
    the cell state, 4096 × 1024 each), the new memory — half 0 the new hidden state, half 1 the new cell state. -/
def step (x : (⟨2, ![4096, 1024]⟩ : Shape).Idx → EReal) (hm : (⟨3, ![2, 4096, 1024]⟩ : Shape).Idx → EReal)
    (W U : (⟨2, ![1024, 4096]⟩ : Shape).Idx → EReal) (b : (⟨1, ![4096]⟩ : Shape).Idx → EReal) :
    (⟨3, ![2, 4096, 1024]⟩ : Shape).Idx → EReal := fun i =>
  if (i 0).val = 0 then
    newHidden (fun k => x (ix2 (i 1) k)) (fun k => hm (ix3 (0 : Fin 2) (i 1) k)) (fun j => hm (ix3 (1 : Fin 2) (i 1) j)) W U (fun n => b (ix1 n)) (i 2)
  else
    newCell (fun k => x (ix2 (i 1) k)) (fun k => hm (ix3 (0 : Fin 2) (i 1) k)) (fun j => hm (ix3 (1 : Fin 2) (i 1) j)) W U (fun n => b (ix1 n)) (i 2)

end Cert.Lstm

end
-- ==== Proof.KernelPoint.lean ====
/-
  What one grid point computes, read at an index over the extended reals: the kernel's fused pre-activations
  are the step's `gate` of the block's rows (each of its two matrix products into a zero accumulator is the plain
  sum over the 1024 contracted entries, the bias row is spread over the 256 rows), and the two stored values are
  the step's `newCell` and `newHidden` of those rows (the four gates are the four 1024-column slices).
-/
import proofs.«105680_j39101382263299_2_alg».proof.Proof.Gen.KernelIdeal.Skeleton
import proofs.«105680_j39101382263299_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Point

open Cert.KernelIdeal Cert.KernelIdeal.Gen Cert.Lstm
open Idealize.ShloMosaic Idealize.ShloMosaic.ValueIdx
open scoped BigOperators

/-! ## A block's matrix product at an index -/

theorem lhs_row (i : S256x4096.Idx) (q : dot_S256x1024_S1024x4096_S256x4096_1_0_0_1_n_n.contr.Idx) :
    (dot_S256x1024_S1024x4096_S256x4096_1_0_0_1_n_n.lhsIdx i q 0).val = (i 0).val := by
  unfold DotDims.lhsIdx
  rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
  rfl
theorem rhs_col (i : S256x4096.Idx) (q : dot_S256x1024_S1024x4096_S256x4096_1_0_0_1_n_n.contr.Idx) :
    (dot_S256x1024_S1024x4096_S256x4096_1_0_0_1_n_n.rhsIdx i q 1).val = (i 1).val := by
  unfold DotDims.rhsIdx
  rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
  rfl

/-- A [256,1024] × [1024,4096] product into the zero accumulator, at (p, n): the sum over the contracted axis. -/
theorem matmul_read (L : FVec Ideal S256x1024 .bf16) (R : FVec Ideal S1024x4096 .bf16) (p : Fin 256) (n : Fin 4096) :
    matmul dot_S256x1024_S1024x4096_S256x4096_1_0_0_1_n_n none L R (constant S256x4096 .f32 0x00000000#32) (ix2 p n)
      = ∑ k : Fin 1024, L (ix2 p k) * R (ix2 k n) := by
  simp only [matmul]
  rw [Ideal.matmul_constant_zero_apply, ← Equiv.sum_comp (ValueIdx.contrEquiv1 dot_S256x1024_S1024x4096_S256x4096_1_0_0_1_n_n 1024 rfl rfl).symm]
  refine Finset.sum_congr rfl fun k _ => ?_
  have hk := ValueIdx.contrEquiv1_symm_val dot_S256x1024_S1024x4096_S256x4096_1_0_0_1_n_n 1024 rfl rfl k
  have el : dot_S256x1024_S1024x4096_S256x4096_1_0_0_1_n_n.lhsIdx (ix2 p n) ((ValueIdx.contrEquiv1 dot_S256x1024_S1024x4096_S256x4096_1_0_0_1_n_n 1024 rfl rfl).symm k) = ix2 p k := funext fun a => Fin.ext (by
    match a with
    | ⟨0, _⟩ => exact lhs_row _ _
    | ⟨1, _⟩ => exact (dot_S256x1024_S1024x4096_S256x4096_1_0_0_1_n_n.lhsIdx_val_of_single rfl _ _).trans hk)
  have er : dot_S256x1024_S1024x4096_S256x4096_1_0_0_1_n_n.rhsIdx (ix2 p n) ((ValueIdx.contrEquiv1 dot_S256x1024_S1024x4096_S256x4096_1_0_0_1_n_n 1024 rfl rfl).symm k) = ix2 k n := funext fun a => Fin.ext (by
    match a with
    | ⟨0, _⟩ => exact (dot_S256x1024_S1024x4096_S256x4096_1_0_0_1_n_n.rhsIdx_val_of_single rfl _ _).trans hk
    | ⟨1, _⟩ => exact rhs_col _ _)
  rw [el, er]

/-! ## The pre-activations -/

/-- The fused pre-activations of row `p` of the block at fused column `n`. -/
theorem gates_read (v0 : Vec Ideal S256x1024 .f32) (v2 : Vec Ideal S1x256x1024 .f32) (v5 v8 : Vec Ideal S1024x4096 .bf16)
    (v12 : Vec Ideal S1x4096 .f32) (p : Fin 256) (n : Fin 4096) :
    k0_pay2 (F := Ideal) v0 v2 v5 v8 v12 (ix2 p n)
      = gate (fun k => v0 (ix2 p k)) (fun k => v2 (ix3 (0 : Fin 1) p k)) v5 v8 (fun n => v12 (ix2 (0 : Fin 1) n)) n := by
  unfold k0_pay2 gate
  try dsimp only
  rw [addf_apply, addf_apply, matmul_read, matmul_read, broadcastTo_1b_ab_apply]
  simp only [truncf_apply, shapeCast_self, shapeCast_1ab_ab_apply]

/-! ## The stored values -/

theorem logistic_read {s : Shape} {φ : FTy} (a : FVec Ideal s φ) (i : s.Idx) : logistic a i = Ideal.logistic (a i) := rfl
theorem tanh_read {s : Shape} {φ : FTy} (a : FVec Ideal s φ) (i : s.Idx) : Idealize.ShloMosaic.tanh a i = Ideal.tanh (a i) := rfl

/-- Gate `q`'s 1024-column slice of the fused pre-activations, at (p, j): the pre-activation at its fused column. -/
theorem gate_slice (v0 : Vec Ideal S256x1024 .f32) (v2 : Vec Ideal S1x256x1024 .f32) (v5 v8 : Vec Ideal S1024x4096 .bf16)
    (v12 : Vec Ideal S1x4096 .f32) (q : Fin 4) (o : Nat) (ho : o = q.val * 1024) (h : S256x4096.Slices ![0, o] S256x1024)
    (p : Fin 256) (j : Fin 1024) :
    extractStridedSlice S256x1024 ![0, o] (k0_pay2 (F := Ideal) v0 v2 v5 v8 v12) h (ix2 p j)
      = gate (fun k => v0 (ix2 p k)) (fun k => v2 (ix3 (0 : Fin 1) p k)) v5 v8 (fun n => v12 (ix2 (0 : Fin 1) n)) (col q j) := by
  rw [slice2_axis1_apply o _ h p j (col q j) (by rw [col_val, ho]), gates_read]

/-- The new cell state of row `p` of the block at column `j`. -/
theorem cell_read (v0 : Vec Ideal S256x1024 .f32) (v2 : Vec Ideal S1x256x1024 .f32) (v5 v8 : Vec Ideal S1024x4096 .bf16)
    (v12 : Vec Ideal S1x4096 .f32) (v24 : Vec Ideal S1x256x1024 .f32) (p : Fin 256) (j : Fin 1024) :
    k0_pay3 (F := Ideal) v0 v2 v5 v8 v12 v24 (ix2 p j)
      = newCell (fun k => v0 (ix2 p k)) (fun k => v2 (ix3 (0 : Fin 1) p k)) (fun j => v24 (ix3 (0 : Fin 1) p j)) v5 v8
          (fun n => v12 (ix2 (0 : Fin 1) n)) j := by
  unfold k0_pay3 newCell
  try dsimp only
  rw [addf_apply, mulf_apply, mulf_apply, logistic_read, logistic_read, tanh_read,
    gate_slice v0 v2 v5 v8 v12 1 1024 rfl, gate_slice v0 v2 v5 v8 v12 0 0 rfl, gate_slice v0 v2 v5 v8 v12 3 3072 rfl,
    shapeCast_1ab_ab_apply]

/-- The new hidden state of row `p` of the block at column `j`, as the body stores it (with a leading unit axis). -/
theorem hidden_read (v0 : Vec Ideal S256x1024 .f32) (v2 : Vec Ideal S1x256x1024 .f32) (v5 v8 : Vec Ideal S1024x4096 .bf16)
    (v12 : Vec Ideal S1x4096 .f32) (v24 : Vec Ideal S1x256x1024 .f32) (u : Fin 1) (p : Fin 256) (j : Fin 1024) :
    k0_pay4 (F := Ideal) v0 v2 v5 v8 v12 v24 (ix3 u p j)
      = newHidden (fun k => v0 (ix2 p k)) (fun k => v2 (ix3 (0 : Fin 1) p k)) (fun j => v24 (ix3 (0 : Fin 1) p j)) v5 v8
          (fun n => v12 (ix2 (0 : Fin 1) n)) j := by
  unfold k0_pay4 newHidden
  try dsimp only
  rw [shapeCast_ab_1ab_apply, mulf_apply, logistic_read, tanh_read, gate_slice v0 v2 v5 v8 v12 2 2048 rfl, cell_read]

/-- The new cell state as the body stores it (with a leading unit axis). -/
theorem cell_stored (v28 : FVec Ideal S256x1024 .f32) (u : Fin 1) (p : Fin 256) (j : Fin 1024) :
    k0_pay1 (F := Ideal) v28 (ix3 u p j) = v28 (ix2 p j) := by
  unfold k0_pay1
  rw [shapeCast_ab_1ab_apply]

end Cert.KernelIdeal.Point

end
-- ==== Proof.KernelBlock.lean ====
/-
  The output block one grid point leaves, read at an index: half 0 holds the new hidden state and half 1 the
  new cell state of the block's 256 rows, each row computed from the same row of the x block and of the two
  halves of the memory block, the whole weight blocks and the bias row. Where the blocks are the matching
  rows of whole arrays this is the step of Spec at the block's place in the result.
-/
import proofs.«105680_j39101382263299_2_alg».proof.Proof.IdealFrame
import proofs.«105680_j39101382263299_2_alg».proof.Proof.KernelPoint

set_option maxRecDepth 16384

noncomputable section

namespace Cert.KernelIdeal.Block

open Cert.KernelIdeal Cert.KernelIdeal.Gen Cert.KernelIdeal.Frm Cert.KernelIdeal.Point Cert.Lstm
open Idealize.ShloMosaic Idealize.ShloMosaic.ValueIdx
open scoped BigOperators

/-- The step on one block: row `y 1` of the block, column `y 2`, half `y 0`. -/
def blockStep (x0 : Vec Ideal S256x1024 .f32) (x1 : Vec Ideal S2x256x1024 .f32) (x2 x3 : Vec Ideal S1024x4096 .bf16)
    (x4 : Vec Ideal S1x4096 .f32) : S2x256x1024.Idx → EReal := fun y =>
  if (y 0).val = 0 then
    newHidden (fun k => x0 (ix2 (y 1) k)) (fun k => x1 (ix3 (0 : Fin 2) (y 1) k)) (fun j => x1 (ix3 (1 : Fin 2) (y 1) j)) x2 x3
      (fun n => x4 (ix2 (0 : Fin 1) n)) (y 2)
  else
    newCell (fun k => x0 (ix2 (y 1) k)) (fun k => x1 (ix3 (0 : Fin 2) (y 1) k)) (fun j => x1 (ix3 (1 : Fin 2) (y 1) j)) x2 x3
      (fun n => x4 (ix2 (0 : Fin 1) n)) (y 2)

theorem zero2 : (![0, 0] : Fin 2 → Nat) = fun _ => 0 := funext fun a => by fin_cases a <;> rfl

/-- A load of half `h` of a [2,256,1024] block reads the block at (h, p, k). -/
theorem ld_half0 (x1 : Vec Ideal S2x256x1024 .f32) (u : Fin 1) (p : Fin 256) (k : Fin 1024) :
    View.ld x1 rH (ix3 u p k) = x1 (ix3 (0 : Fin 2) p k) := by
  show x1 (rH.idx (ix3 u p k)) = _
  refine congrArg x1 (funext fun a => Fin.ext ?_)
  have hu : u.val = 0 := by omega
  match a with
  | ⟨0, _⟩ => show 0 + 1 * u.val = 0; omega
  | ⟨1, _⟩ => show 0 + 1 * p.val = p.val; omega
  | ⟨2, _⟩ => show 0 + 1 * k.val = k.val; omega
theorem ld_half1 (x1 : Vec Ideal S2x256x1024 .f32) (u : Fin 1) (p : Fin 256) (k : Fin 1024) :
    View.ld x1 rC (ix3 u p k) = x1 (ix3 (1 : Fin 2) p k) := by
  show x1 (rC.idx (ix3 u p k)) = _
  refine congrArg x1 (funext fun a => Fin.ext ?_)
  have hu : u.val = 0 := by omega
  match a with
  | ⟨0, _⟩ => show 1 + 1 * u.val = 1; omega
  | ⟨1, _⟩ => show 0 + 1 * p.val = p.val; omega
  | ⟨2, _⟩ => show 0 + 1 * k.val = k.val; omega

/-- What the body leaves in the output block is the step on the block. -/
theorem outBlk_read (x0 : Vec Ideal S256x1024 .f32) (x1 : Vec Ideal S2x256x1024 .f32) (x2 x3 : Vec Ideal S1024x4096 .bf16)
    (x4 : Vec Ideal S1x4096 .f32) (y : S2x256x1024.Idx) :
    outBlk (F := Ideal) x0 x1 x2 x3 x4 y = blockStep x0 x1 x2 x3 x4 y := by
  unfold outBlk
  refine View.canon_apply_of_pieces (Val := Elt Ideal) (blockStep x0 x1 x2 x3 x4) _ ?_ y (outBlk_cover _ _ y)
  intro pc hpc x
  simp only [List.mem_cons, List.mem_nil_iff, or_false] at hpc
  rcases hpc with rfl | rfl
  · obtain ⟨u, p, j, rfl⟩ : ∃ (u : Fin 1) (p : Fin 256) (j : Fin 1024), x = ix3 u p j := ⟨x 0, x 1, x 2, eq_ix3 x⟩
    have hu : u.val = 0 := by omega
    have hH : (fun k => View.ld x1 rH (ix3 (0 : Fin 1) p k)) = fun k => x1 (ix3 (0 : Fin 2) p k) := funext fun k => ld_half0 x1 0 p k
    have hC : (fun k => View.ld x1 rC (ix3 (0 : Fin 1) p k)) = fun k => x1 (ix3 (1 : Fin 2) p k) := funext fun k => ld_half1 x1 0 p k
    have i0 : ((rC.emb (ix3 u p j)) 0).val = 1 := by rw [Rect.emb_apply]; show 1 + 1 * u.val = 1; omega
    have i1 : (rC.emb (ix3 u p j)) 1 = p := Fin.ext (by rw [Rect.emb_apply]; show 0 + 1 * p.val = p.val; omega)
    have i2 : (rC.emb (ix3 u p j)) 2 = j := Fin.ext (by rw [Rect.emb_apply]; show 0 + 1 * j.val = j.val; omega)
    dsimp only
    rw [View.ld_unit_zero (S := S256x1024) zero2, View.ld_unit_zero (S := S1024x4096) zero2, View.ld_unit_zero (S := S1024x4096) zero2,
      View.ld_unit_zero (S := S1x4096) zero2, cell_stored, cell_read, hH, hC]
    unfold blockStep
    rw [if_neg (by rw [i0]; decide), i1, i2]
  · obtain ⟨u, p, j, rfl⟩ : ∃ (u : Fin 1) (p : Fin 256) (j : Fin 1024), x = ix3 u p j := ⟨x 0, x 1, x 2, eq_ix3 x⟩
    have hu : u.val = 0 := by omega
    have hH : (fun k => View.ld x1 rH (ix3 (0 : Fin 1) p k)) = fun k => x1 (ix3 (0 : Fin 2) p k) := funext fun k => ld_half0 x1 0 p k
    have hC : (fun k => View.ld x1 rC (ix3 (0 : Fin 1) p k)) = fun k => x1 (ix3 (1 : Fin 2) p k) := funext fun k => ld_half1 x1 0 p k
    have i0 : ((rH.emb (ix3 u p j)) 0).val = 0 := by rw [Rect.emb_apply]; show 0 + 1 * u.val = 0; omega
    have i1 : (rH.emb (ix3 u p j)) 1 = p := Fin.ext (by rw [Rect.emb_apply]; show 0 + 1 * p.val = p.val; omega)
    have i2 : (rH.emb (ix3 u p j)) 2 = j := Fin.ext (by rw [Rect.emb_apply]; show 0 + 1 * j.val = j.val; omega)
    dsimp only
    rw [View.ld_unit_zero (S := S256x1024) zero2, View.ld_unit_zero (S := S1024x4096) zero2, View.ld_unit_zero (S := S1024x4096) zero2,
      View.ld_unit_zero (S := S1x4096) zero2, hidden_read, hH, hC]
    unfold blockStep
    rw [if_pos i0, i1, i2]

/-- Where the blocks are rows of whole arrays — the x block and both halves of the memory block the rows of `X` and
    `HM` that the output index `i` names, the weight blocks the whole of `W` and `U`, the bias row `B` —, the
    step on the block at `y` is the step on the arrays at `i`. -/
theorem blockStep_eq (X : (⟨2, ![4096, 1024]⟩ : Shape).Idx → EReal) (HM : (⟨3, ![2, 4096, 1024]⟩ : Shape).Idx → EReal)
    (W U : (⟨2, ![1024, 4096]⟩ : Shape).Idx → EReal) (B : (⟨1, ![4096]⟩ : Shape).Idx → EReal)
    (x0 : Vec Ideal S256x1024 .f32) (x1 : Vec Ideal S2x256x1024 .f32) (x2 x3 : Vec Ideal S1024x4096 .bf16) (x4 : Vec Ideal S1x4096 .f32)
    (y : S2x256x1024.Idx) (i : (⟨3, ![2, 4096, 1024]⟩ : Shape).Idx)
    (h0 : (i 0).val = (y 0).val) (h2 : i 2 = y 2)
    (e0 : ∀ k, x0 (ix2 (y 1) k) = X (ix2 (i 1) k))
    (e1 : ∀ (s : Fin 2) k, x1 (ix3 s (y 1) k) = HM (ix3 s (i 1) k))
    (e2 : x2 = W) (e3 : x3 = U) (e4 : ∀ n, x4 (ix2 (0 : Fin 1) n) = B (ix1 n)) :
    blockStep x0 x1 x2 x3 x4 y = step X HM W U B i := by
  subst e2 e3
  unfold blockStep step
  simp only [e0, e1, e4, h0, h2]

end Cert.KernelIdeal.Block

end
-- ==== Proof.KernelValue.lean ====
/-
  From blocks to the array: grid point t writes back rows 256·t … 256·t + 255 of both halves of the result;
  the sixteen points cover it; so after the run the result array is the step of Spec of the argument arrays —
  the four gates' weights side by side, their biases end to end, as the host operations before the region lay
  them out (a change of float format is the identity on the extended reals).
-/
import proofs.«105680_j39101382263299_2_alg».proof.Proof.IdealRun
import proofs.«105680_j39101382263299_2_alg».proof.Proof.KernelBlock
import Idealize.ShloMosaic.Lib.Pipeline.Value
import Idealize.ShloMosaic.Lib.StableHlo.Run

set_option maxRecDepth 16384

noncomputable section

namespace Cert.KernelIdeal.Val

open Cert.KernelIdeal Cert.KernelIdeal.Gen Cert.KernelIdeal.Frm Cert.KernelIdeal.Block Cert.Lstm
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## The fused operands -/

/-- The four input-side weight matrices side by side, the four hidden-side ones, the four biases end to end. -/
abbrev Wcat (c : Dev nD) : S1024x4096.Idx → EReal :=
  concatenate S1024x4096 1 [⟨S1024x1024, (m ((c : Thread nD τ).loc main_arg2))⟩, ⟨S1024x1024, (m ((c : Thread nD τ).loc main_arg5))⟩, ⟨S1024x1024, (m ((c : Thread nD τ).loc main_arg8))⟩, ⟨S1024x1024, (m ((c : Thread nD τ).loc main_arg11))⟩] concatenates_S1024x1024_S1024x1024_S1024x1024_S1024x1024_S1024x4096_d1
abbrev Ucat (c : Dev nD) : S1024x4096.Idx → EReal :=
  concatenate S1024x4096 1 [⟨S1024x1024, (m ((c : Thread nD τ).loc main_arg3))⟩, ⟨S1024x1024, (m ((c : Thread nD τ).loc main_arg6))⟩, ⟨S1024x1024, (m ((c : Thread nD τ).loc main_arg9))⟩, ⟨S1024x1024, (m ((c : Thread nD τ).loc main_arg12))⟩] concatenates_S1024x1024_S1024x1024_S1024x1024_S1024x1024_S1024x4096_d1
abbrev bcat (c : Dev nD) : S4096.Idx → EReal :=
  concatenate S4096 0 [⟨S1024, (m ((c : Thread nD τ).loc main_arg4))⟩, ⟨S1024, (m ((c : Thread nD τ).loc main_arg7))⟩, ⟨S1024, (m ((c : Thread nD τ).loc main_arg10))⟩, ⟨S1024, (m ((c : Thread nD τ).loc main_arg13))⟩] concatenates_S1024_S1024_S1024_S1024_S4096_d0

/-- What the region finds in the three arrays the host operations wrote for it. -/
theorem V_W (c : Dev nD) : (V m c main_v1 : S1024x4096.Idx → EReal) = Wcat m c := by
  dsimp only [V, hostOps0]; after_results; rfl
theorem V_U (c : Dev nD) : (V m c main_v3 : S1024x4096.Idx → EReal) = Ucat m c := by
  dsimp only [V, hostOps0]; after_results; rfl
theorem V_b (c : Dev nD) : (V m c main_v5 : S1x4096.Idx → EReal) = shapeCast S1x4096 (bcat m c) shapeCasts_S4096_S1x4096 := by
  dsimp only [V, hostOps0]; after_results; rfl

/-- The result array as one function of the argument arrays. -/
def result (c : Dev nD) : S2x4096x1024.Idx → EReal :=
  step (m ((c : Thread nD τ).loc main_arg0)) (m ((c : Thread nD τ).loc main_arg1)) (Wcat m c) (Ucat m c) (bcat m c)

/-! ## What a grid point writes back -/

/-- The printed index maps over the grid: x and the memory move with the output along the batch axis, the
    weights and the bias stay. -/
theorem idx_facts : ∀ t : Fin cfg0.N,
    win0_0.index t (0 : Fin 2) = t.val ∧ win0_0.index t (1 : Fin 2) = 0
    ∧ win0_1.index t (0 : Fin 3) = 0 ∧ win0_1.index t (1 : Fin 3) = t.val ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = 0 ∧ win0_5.index t (1 : Fin 3) = t.val ∧ win0_5.index t (2 : Fin 3) = 0 :=
  (by decide +kernel : ∀ t : Fin grid0.N, _)

/-- Grid point `t` writes back block `t` of `result`. -/
theorem flushed_eq (c : Dev nD) (t : Fin cfg0.N) :
    (dats m 0 c).flushed 5 t = ((cfg0.win 5).blk t).view.read (Elt Ideal) (result m c) := by
  show (cfg0.win 5).cut (grid0.coords t) ((dats m 0 c).after 5 t) = _
  rw [after0_5]
  obtain ⟨a0, a1, b0, b1, b2, w0, w1, u0, u1, r0, r1, o0, o1, o2⟩ := idx_facts t
  funext y
  show outBlk (iblk m c 0 t) (iblk m c 1 t) (iblk m c 2 t) (iblk m c 3 t) (iblk m c 4 t) y = result m c (((cfg0.win 5).blk t).view.emb y)
  refine (outBlk_read _ _ _ _ _ y).trans ?_
  unfold result
  refine blockStep_eq _ _ _ _ _ _ _ _ _ _ y _ ?_ ?_ ?_ ?_ ?_ ?_ ?_
  · show win0_5.index t (0 : Fin 3) * 2 + 1 * (y 0).val = (y 0).val; omega
  · apply Fin.ext; show win0_5.index t (2 : Fin 3) * 1024 + 1 * (y 2).val = (y 2).val; omega
  · intro k
    show V m c main_arg0 (((cfg0.win 0).blk t).view.emb (ix2 (y 1) k)) = _
    rw [V_arg m c main_arg0 (by decide)]
    refine congrArg (m ((c : Thread nD τ).loc main_arg0)) (funext fun a => Fin.ext ?_)
    match a with
    | ⟨0, _⟩ => show win0_0.index t (0 : Fin 2) * 256 + 1 * (y 1).val = win0_5.index t (1 : Fin 3) * 256 + 1 * (y 1).val; omega
    | ⟨1, _⟩ => show win0_0.index t (1 : Fin 2) * 1024 + 1 * k.val = k.val; omega
  · intro s k
    show V m c main_arg1 (((cfg0.win 1).blk t).view.emb (ix3 s (y 1) k)) = _
    rw [V_arg m c main_arg1 (by decide)]
    refine congrArg (m ((c : Thread nD τ).loc main_arg1)) (funext fun a => Fin.ext ?_)
    match a with
    | ⟨0, _⟩ => show win0_1.index t (0 : Fin 3) * 2 + 1 * s.val = s.val; omega
    | ⟨1, _⟩ => show win0_1.index t (1 : Fin 3) * 256 + 1 * (y 1).val = win0_5.index t (1 : Fin 3) * 256 + 1 * (y 1).val; omega
    | ⟨2, _⟩ => show win0_1.index t (2 : Fin 3) * 1024 + 1 * k.val = k.val; omega
  · funext z
    show V m c main_v1 (((cfg0.win 2).blk t).view.emb z) = Wcat m c z
    rw [V_W]
    refine congrArg (Wcat m c) (funext fun a => Fin.ext ?_)
    match a with
    | ⟨0, _⟩ => show win0_2.index t (0 : Fin 2) * 1024 + 1 * (z 0).val = (z 0).val; omega
    | ⟨1, _⟩ => show win0_2.index t (1 : Fin 2) * 4096 + 1 * (z 1).val = (z 1).val; omega
  · funext z
    show V m c main_v3 (((cfg0.win 3).blk t).view.emb z) = Ucat m c z
    rw [V_U]
    refine congrArg (Ucat m c) (funext fun a => Fin.ext ?_)
    match a with
    | ⟨0, _⟩ => show win0_3.index t (0 : Fin 2) * 1024 + 1 * (z 0).val = (z 0).val; omega
    | ⟨1, _⟩ => show win0_3.index t (1 : Fin 2) * 4096 + 1 * (z 1).val = (z 1).val; omega
  · intro n
    show V m c main_v5 (((cfg0.win 4).blk t).view.emb (ix2 (0 : Fin 1) n)) = bcat m c (ix1 n)
    rw [V_b, ← shapeCast_a_1a_apply (bcat m c) shapeCasts_S4096_S1x4096 (0 : Fin 1) n]
    refine congrArg (shapeCast S1x4096 (bcat m c) shapeCasts_S4096_S1x4096) (funext fun a => Fin.ext ?_)
    match a with
    | ⟨0, _⟩ => show win0_4.index t (0 : Fin 2) * 1 + 1 * 0 = 0; omega
    | ⟨1, _⟩ => show win0_4.index t (1 : Fin 2) * 4096 + 1 * n.val = n.val; omega

/-! ## The sixteen blocks cover the result -/

/-- Every block row of the result is some grid point's. -/
theorem idx_onto : ∀ q : Fin 16, ∃ t : Fin cfg0.N, win0_5.index t = ![0, q.val, 0] :=
  (by decide +kernel : ∀ q : Fin 16, ∃ t : Fin grid0.N, win0_5.index t = ![0, q.val, 0])

/-- An index of the result is in point `t`'s block iff each coordinate is in the block's range on its axis. -/
theorem mem_blk (t : Fin cfg0.N) (i : S2x4096x1024.Idx) :
    i ∈ ((cfg0.win 5).blk t).view.set ↔ ∀ a : Fin 3, win0_5.index t a * S2x256x1024.size a ≤ (i a).val
      ∧ (i a).val < win0_5.index t a * S2x256x1024.size a + S2x256x1024.size a := by
  show i ∈ ((View.whole main_v6).slice (win0_5.rect t)).set ↔ _
  rw [View.set_slice_whole, Rect.mem_set_unit]
  exact Iff.rfl

/-- Row `r` of the result is in the block of point `r / 256`. -/
theorem cover (i : S2x4096x1024.Idx) : ∃ t : Fin cfg0.N, (cfg0.win 5).flush t = true ∧ i ∈ ((cfg0.win 5).blk t).view.set := by
  have hi0 : (i 0).val < 2 := (i 0).isLt
  have hi1 : (i 1).val < 4096 := (i 1).isLt
  have hi2 : (i 2).val < 1024 := (i 2).isLt
  obtain ⟨t, ht⟩ := idx_onto ⟨(i 1).val / 256, by omega⟩
  have q0 : win0_5.index t (0 : Fin 3) = 0 := congrFun ht 0
  have q1 : win0_5.index t (1 : Fin 3) = (i 1).val / 256 := congrFun ht 1
  have q2 : win0_5.index t (2 : Fin 3) = 0 := congrFun ht 2
  refine ⟨t, flush0_5 t, ?_⟩
  rw [mem_blk]
  intro a
  match a with
  | ⟨0, _⟩ => show win0_5.index t (0 : Fin 3) * 2 ≤ (i 0).val ∧ (i 0).val < win0_5.index t (0 : Fin 3) * 2 + 2; omega
  | ⟨1, _⟩ => show win0_5.index t (1 : Fin 3) * 256 ≤ (i 1).val ∧ (i 1).val < win0_5.index t (1 : Fin 3) * 256 + 256; omega
  | ⟨2, _⟩ => show win0_5.index t (2 : Fin 3) * 1024 ≤ (i 2).val ∧ (i 2).val < win0_5.index t (2 : Fin 3) * 1024 + 1024; omega

/-- So the result array after the run is `result`. -/
theorem final (c : Dev nD) : (dats m 0 c).arrAt 5 cfg0.N = result m c :=
  (dats m 0 c).arrAt_eq_of_cover 5 (result m c) (fun t _ => flushed_eq m c t) cover

/-! ## The run, read -/

/-- Every weakly fair execution of the idealized kernel terminates with the result array at `result` and the
    argument arrays as launched. -/
theorem run : θ_run defs (onTc (τ := τ) (main (F := Ideal))) ⟨m, fun _ => 0, ρ⟩ fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c => ⟨(post_out m r h c).trans (final m c), kept_args m r h c⟩) (run_main m ρ)

end Cert.KernelIdeal.Val

end
-- ==== Proof.RefStep.lean ====
/-
  The reference, read at an index over the extended reals, is the step of Spec: its two whole-array matrix
  products and the bias spread over the rows give the pre-activations; each sigmoid, spelled
  1 / (1 + exp (−g)) with the float word of 1.0, is the logistic function; the two results are laid one after
  the other along a new leading axis.
-/
import proofs.«105680_j39101382263299_2_alg».proof.Proof.Gen.ReferenceIdeal.Read
import proofs.«105680_j39101382263299_2_alg».proof.Proof.Spec
import Idealize.ShloMosaic.Lib.ValueLayout

noncomputable section

namespace Cert.ReferenceIdeal.RefStep

open Cert.ReferenceIdeal Cert.ReferenceIdeal.Gen Cert.ReferenceIdeal.Read Cert.Lstm
open Idealize.ShloMosaic Idealize.ShloMosaic.ValueIdx
open scoped BigOperators

/-- The float word of 1.0 is the real number 1. -/
theorem one_word : Ideal.ofBits .f32 0x3F800000#32 = 1 := by simp [Ideal.ofBits, Ideal.ieee, -EReal.coe_mul]; norm_num

/-- The reference's sigmoid of `g`. -/
theorem sigmoid_eq (g : EReal) :
    FloatOps.hostDivf (F := Ideal) (φ := .f32) (FloatOps.ofBits .f32 0x3F800000#32)
      (FloatOps.addf (FloatOps.ofBits .f32 0x3F800000#32) (FloatOps.hostUnary .exp (FloatOps.hostNegf g))) = Ideal.logistic g := by
  simp only [Ideal.hostDivf_def, Ideal.addf_def, Ideal.hostUnary_exp_def, Ideal.hostNegf_def, Ideal.negf_def, Ideal.ofBits_def, one_word,
    Ideal.logistic]

/-- The previous hidden state at (r, k) is half 0 of the memory there; the previous cell state half 1. -/
theorem prev_hidden (x1 : (⟨S2x4096x1024, .f32⟩ : BufTy).Contents (Elt Ideal)) (r : Fin 4096) (k : Fin 1024) :
    val_main_v1 (F := Ideal) x1 (ix2 r k) = x1 (ix3 (0 : Fin 2) r k) := by
  rw [val_main_v1_apply, val_main_v0_apply]
  refine congrArg x1 (funext fun a => Fin.ext ?_)
  have hr := r.isLt; have hk := k.isLt
  match a with
  | ⟨0, _⟩ => rfl
  | ⟨1, _⟩ => show (r.val * 1024 + k.val) / 1024 % 4096 = r.val; omega
  | ⟨2, _⟩ => show (r.val * 1024 + k.val) % 1024 = k.val; omega
theorem prev_cell (x1 : (⟨S2x4096x1024, .f32⟩ : BufTy).Contents (Elt Ideal)) (r : Fin 4096) (k : Fin 1024) :
    val_main_v3 (F := Ideal) x1 (ix2 r k) = x1 (ix3 (1 : Fin 2) r k) := by
  rw [val_main_v3_apply, val_main_v2_apply]
  refine congrArg x1 (funext fun a => Fin.ext ?_)
  have hr := r.isLt; have hk := k.isLt
  match a with
  | ⟨0, _⟩ => rfl
  | ⟨1, _⟩ => show (r.val * 1024 + k.val) / 1024 % 4096 = r.val; omega
  | ⟨2, _⟩ => show (r.val * 1024 + k.val) % 1024 = k.val; omega

/-- The pre-activations of row `r` at fused column `n`. -/
theorem gates_read (x0 : (⟨S4096x1024, .f32⟩ : BufTy).Contents (Elt Ideal)) (x1 : (⟨S2x4096x1024, .f32⟩ : BufTy).Contents (Elt Ideal))
    (x2 x3 : (⟨S1024x1024, .f32⟩ : BufTy).Contents (Elt Ideal)) (x4 : (⟨S1024, .f32⟩ : BufTy).Contents (Elt Ideal))
    (x5 x6 : (⟨S1024x1024, .f32⟩ : BufTy).Contents (Elt Ideal)) (x7 : (⟨S1024, .f32⟩ : BufTy).Contents (Elt Ideal))
    (x8 x9 : (⟨S1024x1024, .f32⟩ : BufTy).Contents (Elt Ideal)) (x10 : (⟨S1024, .f32⟩ : BufTy).Contents (Elt Ideal))
    (x11 x12 : (⟨S1024x1024, .f32⟩ : BufTy).Contents (Elt Ideal)) (x13 : (⟨S1024, .f32⟩ : BufTy).Contents (Elt Ideal)) (r : Fin 4096) (n : Fin 4096) :
    val_main_v12 (F := Ideal) x0 x1 x2 x3 x4 x5 x6 x7 x8 x9 x10 x11 x12 x13 (ix2 r n)
      = gate (fun k => x0 (ix2 r k)) (fun k => x1 (ix3 (0 : Fin 2) r k)) (val_main_v4 (F := Ideal) x2 x5 x8 x11) (val_main_v5 (F := Ideal) x3 x6 x9 x12) (fun n => val_main_v6 (F := Ideal) x4 x7 x10 x13 (ix1 n)) n := by
  rw [val_main_v12_apply, val_main_v9_apply, val_main_v7_apply, val_main_v8_apply, val_main_v11_apply, val_main_v10_apply]
  unfold gate
  simp only [Ideal.addf_def]
  have e1 : ∀ k : Fin 1024, lidx_main_v7 (ix2 r n) k = ix2 r k := fun k => funext fun a => by match a with | ⟨0, _⟩ => rfl | ⟨1, _⟩ => rfl
  have e2 : ∀ k : Fin 1024, ridx_main_v7 (ix2 r n) k = ix2 k n := fun k => funext fun a => by match a with | ⟨0, _⟩ => rfl | ⟨1, _⟩ => rfl
  have e3 : ∀ k : Fin 1024, lidx_main_v8 (ix2 r n) k = ix2 r k := fun k => funext fun a => by match a with | ⟨0, _⟩ => rfl | ⟨1, _⟩ => rfl
  have e4 : ∀ k : Fin 1024, ridx_main_v8 (ix2 r n) k = ix2 k n := fun k => funext fun a => by match a with | ⟨0, _⟩ => rfl | ⟨1, _⟩ => rfl
  have e5 : idx_main_v10 (idx_main_v11 (ix2 r n)) = ix1 n := funext fun a => by match a with | ⟨0, _⟩ => rfl
  simp only [e1, e2, e3, e4, e5, prev_hidden]

/-! ## The four gates' slices -/

theorem slice_input (x0 : (⟨S4096x1024, .f32⟩ : BufTy).Contents (Elt Ideal)) (x1 : (⟨S2x4096x1024, .f32⟩ : BufTy).Contents (Elt Ideal))
    (x2 x3 : (⟨S1024x1024, .f32⟩ : BufTy).Contents (Elt Ideal)) (x4 : (⟨S1024, .f32⟩ : BufTy).Contents (Elt Ideal))
    (x5 x6 : (⟨S1024x1024, .f32⟩ : BufTy).Contents (Elt Ideal)) (x7 : (⟨S1024, .f32⟩ : BufTy).Contents (Elt Ideal))
    (x8 x9 : (⟨S1024x1024, .f32⟩ : BufTy).Contents (Elt Ideal)) (x10 : (⟨S1024, .f32⟩ : BufTy).Contents (Elt Ideal))
    (x11 x12 : (⟨S1024x1024, .f32⟩ : BufTy).Contents (Elt Ideal)) (x13 : (⟨S1024, .f32⟩ : BufTy).Contents (Elt Ideal)) (r : Fin 4096) (j : Fin 1024) :
    val_main_v13 (F := Ideal) x0 x1 x2 x3 x4 x5 x6 x7 x8 x9 x10 x11 x12 x13 (ix2 r j)
      = gate (fun k => x0 (ix2 r k)) (fun k => x1 (ix3 (0 : Fin 2) r k)) (val_main_v4 (F := Ideal) x2 x5 x8 x11) (val_main_v5 (F := Ideal) x3 x6 x9 x12) (fun n => val_main_v6 (F := Ideal) x4 x7 x10 x13 (ix1 n)) (col 0 j) := by
  rw [val_main_v13_apply, ← gates_read]
  refine congrArg (val_main_v12 (F := Ideal) x0 x1 x2 x3 x4 x5 x6 x7 x8 x9 x10 x11 x12 x13) (funext fun a => Fin.ext ?_)
  match a with
  | ⟨0, _⟩ => rfl
  | ⟨1, _⟩ => show j.val = 0 * 1024 + j.val; omega

theorem slice_forget (x0 : (⟨S4096x1024, .f32⟩ : BufTy).Contents (Elt Ideal)) (x1 : (⟨S2x4096x1024, .f32⟩ : BufTy).Contents (Elt Ideal))
    (x2 x3 : (⟨S1024x1024, .f32⟩ : BufTy).Contents (Elt Ideal)) (x4 : (⟨S1024, .f32⟩ : BufTy).Contents (Elt Ideal))
    (x5 x6 : (⟨S1024x1024, .f32⟩ : BufTy).Contents (Elt Ideal)) (x7 : (⟨S1024, .f32⟩ : BufTy).Contents (Elt Ideal))
    (x8 x9 : (⟨S1024x1024, .f32⟩ : BufTy).Contents (Elt Ideal)) (x10 : (⟨S1024, .f32⟩ : BufTy).Contents (Elt Ideal))
    (x11 x12 : (⟨S1024x1024, .f32⟩ : BufTy).Contents (Elt Ideal)) (x13 : (⟨S1024, .f32⟩ : BufTy).Contents (Elt Ideal)) (r : Fin 4096) (j : Fin 1024) :
    val_main_v20 (F := Ideal) x0 x1 x2 x3 x4 x5 x6 x7 x8 x9 x10 x11 x12 x13 (ix2 r j)
      = gate (fun k => x0 (ix2 r k)) (fun k => x1 (ix3 (0 : Fin 2) r k)) (val_main_v4 (F := Ideal) x2 x5 x8 x11) (val_main_v5 (F := Ideal) x3 x6 x9 x12) (fun n => val_main_v6 (F := Ideal) x4 x7 x10 x13 (ix1 n)) (col 1 j) := by
  rw [val_main_v20_apply, ← gates_read]
  refine congrArg (val_main_v12 (F := Ideal) x0 x1 x2 x3 x4 x5 x6 x7 x8 x9 x10 x11 x12 x13) (funext fun a => Fin.ext ?_)
  match a with
  | ⟨0, _⟩ => rfl
  | ⟨1, _⟩ => show 1024 + j.val = 1 * 1024 + j.val; omega

theorem slice_output (x0 : (⟨S4096x1024, .f32⟩ : BufTy).Contents (Elt Ideal)) (x1 : (⟨S2x4096x1024, .f32⟩ : BufTy).Contents (Elt Ideal))
    (x2 x3 : (⟨S1024x1024, .f32⟩ : BufTy).Contents (Elt Ideal)) (x4 : (⟨S1024, .f32⟩ : BufTy).Contents (Elt Ideal))
    (x5 x6 : (⟨S1024x1024, .f32⟩ : BufTy).Contents (Elt Ideal)) (x7 : (⟨S1024, .f32⟩ : BufTy).Contents (Elt Ideal))
    (x8 x9 : (⟨S1024x1024, .f32⟩ : BufTy).Contents (Elt Ideal)) (x10 : (⟨S1024, .f32⟩ : BufTy).Contents (Elt Ideal))
    (x11 x12 : (⟨S1024x1024, .f32⟩ : BufTy).Contents (Elt Ideal)) (x13 : (⟨S1024, .f32⟩ : BufTy).Contents (Elt Ideal)) (r : Fin 4096) (j : Fin 1024) :
    val_main_v27 (F := Ideal) x0 x1 x2 x3 x4 x5 x6 x7 x8 x9 x10 x11 x12 x13 (ix2 r j)
      = gate (fun k => x0 (ix2 r k)) (fun k => x1 (ix3 (0 : Fin 2) r k)) (val_main_v4 (F := Ideal) x2 x5 x8 x11) (val_main_v5 (F := Ideal) x3 x6 x9 x12) (fun n => val_main_v6 (F := Ideal) x4 x7 x10 x13 (ix1 n)) (col 2 j) := by
  rw [val_main_v27_apply, ← gates_read]
  refine congrArg (val_main_v12 (F := Ideal) x0 x1 x2 x3 x4 x5 x6 x7 x8 x9 x10 x11 x12 x13) (funext fun a => Fin.ext ?_)
  match a with
  | ⟨0, _⟩ => rfl
  | ⟨1, _⟩ => show 2048 + j.val = 2 * 1024 + j.val; omega

theorem slice_cand (x0 : (⟨S4096x1024, .f32⟩ : BufTy).Contents (Elt Ideal)) (x1 : (⟨S2x4096x1024, .f32⟩ : BufTy).Contents (Elt Ideal))
    (x2 x3 : (⟨S1024x1024, .f32⟩ : BufTy).Contents (Elt Ideal)) (x4 : (⟨S1024, .f32⟩ : BufTy).Contents (Elt Ideal))
    (x5 x6 : (⟨S1024x1024, .f32⟩ : BufTy).Contents (Elt Ideal)) (x7 : (⟨S1024, .f32⟩ : BufTy).Contents (Elt Ideal))
    (x8 x9 : (⟨S1024x1024, .f32⟩ : BufTy).Contents (Elt Ideal)) (x10 : (⟨S1024, .f32⟩ : BufTy).Contents (Elt Ideal))
    (x11 x12 : (⟨S1024x1024, .f32⟩ : BufTy).Contents (Elt Ideal)) (x13 : (⟨S1024, .f32⟩ : BufTy).Contents (Elt Ideal)) (r : Fin 4096) (j : Fin 1024) :
    val_main_v34 (F := Ideal) x0 x1 x2 x3 x4 x5 x6 x7 x8 x9 x10 x11 x12 x13 (ix2 r j)
      = gate (fun k => x0 (ix2 r k)) (fun k => x1 (ix3 (0 : Fin 2) r k)) (val_main_v4 (F := Ideal) x2 x5 x8 x11) (val_main_v5 (F := Ideal) x3 x6 x9 x12) (fun n => val_main_v6 (F := Ideal) x4 x7 x10 x13 (ix1 n)) (col 3 j) := by
  rw [val_main_v34_apply, ← gates_read]
  refine congrArg (val_main_v12 (F := Ideal) x0 x1 x2 x3 x4 x5 x6 x7 x8 x9 x10 x11 x12 x13) (funext fun a => Fin.ext ?_)
  match a with
  | ⟨0, _⟩ => rfl
  | ⟨1, _⟩ => show 3072 + j.val = 3 * 1024 + j.val; omega

/-! ## The two results -/

/-- The new cell state at (r, j). -/
theorem cell_read (x0 : (⟨S4096x1024, .f32⟩ : BufTy).Contents (Elt Ideal)) (x1 : (⟨S2x4096x1024, .f32⟩ : BufTy).Contents (Elt Ideal))
    (x2 x3 : (⟨S1024x1024, .f32⟩ : BufTy).Contents (Elt Ideal)) (x4 : (⟨S1024, .f32⟩ : BufTy).Contents (Elt Ideal))
    (x5 x6 : (⟨S1024x1024, .f32⟩ : BufTy).Contents (Elt Ideal)) (x7 : (⟨S1024, .f32⟩ : BufTy).Contents (Elt Ideal))
    (x8 x9 : (⟨S1024x1024, .f32⟩ : BufTy).Contents (Elt Ideal)) (x10 : (⟨S1024, .f32⟩ : BufTy).Contents (Elt Ideal))
    (x11 x12 : (⟨S1024x1024, .f32⟩ : BufTy).Contents (Elt Ideal)) (x13 : (⟨S1024, .f32⟩ : BufTy).Contents (Elt Ideal)) (r : Fin 4096) (j : Fin 1024) :
    val_main_v38 (F := Ideal) x0 x1 x2 x3 x4 x5 x6 x7 x8 x9 x10 x11 x12 x13 (ix2 r j)
      = newCell (fun k => x0 (ix2 r k)) (fun k => x1 (ix3 (0 : Fin 2) r k)) (fun j => x1 (ix3 (1 : Fin 2) r j)) (val_main_v4 (F := Ideal) x2 x5 x8 x11) (val_main_v5 (F := Ideal) x3 x6 x9 x12) (fun n => val_main_v6 (F := Ideal) x4 x7 x10 x13 (ix1 n)) j := by
  rw [val_main_v38_apply, val_main_v36_apply, val_main_v37_apply, val_main_v26_apply, val_main_v19_apply, val_main_v35_apply,
    val_main_v25_apply, val_main_v24_apply, val_main_v23_apply, val_main_v22_apply, val_main_v21_apply,
    val_main_v18_apply, val_main_v17_apply, val_main_v16_apply, val_main_v15_apply, val_main_v14_apply,
    val_main_cst_apply, val_main_cst_0_apply, val_main_cst_1_apply, val_main_cst_2_apply,
    sigmoid_eq, sigmoid_eq, slice_input, slice_forget, slice_cand, prev_cell]
  unfold newCell
  simp only [Ideal.addf_def, Ideal.mulf_def, Ideal.hostUnary_tanh_def]

/-- The new hidden state at (r, j). -/
theorem hidden_read (x0 : (⟨S4096x1024, .f32⟩ : BufTy).Contents (Elt Ideal)) (x1 : (⟨S2x4096x1024, .f32⟩ : BufTy).Contents (Elt Ideal))
    (x2 x3 : (⟨S1024x1024, .f32⟩ : BufTy).Contents (Elt Ideal)) (x4 : (⟨S1024, .f32⟩ : BufTy).Contents (Elt Ideal))
    (x5 x6 : (⟨S1024x1024, .f32⟩ : BufTy).Contents (Elt Ideal)) (x7 : (⟨S1024, .f32⟩ : BufTy).Contents (Elt Ideal))
    (x8 x9 : (⟨S1024x1024, .f32⟩ : BufTy).Contents (Elt Ideal)) (x10 : (⟨S1024, .f32⟩ : BufTy).Contents (Elt Ideal))
    (x11 x12 : (⟨S1024x1024, .f32⟩ : BufTy).Contents (Elt Ideal)) (x13 : (⟨S1024, .f32⟩ : BufTy).Contents (Elt Ideal)) (r : Fin 4096) (j : Fin 1024) :
    val_main_v40 (F := Ideal) x0 x1 x2 x3 x4 x5 x6 x7 x8 x9 x10 x11 x12 x13 (ix2 r j)
      = newHidden (fun k => x0 (ix2 r k)) (fun k => x1 (ix3 (0 : Fin 2) r k)) (fun j => x1 (ix3 (1 : Fin 2) r j)) (val_main_v4 (F := Ideal) x2 x5 x8 x11) (val_main_v5 (F := Ideal) x3 x6 x9 x12) (fun n => val_main_v6 (F := Ideal) x4 x7 x10 x13 (ix1 n)) j := by
  rw [val_main_v40_apply, val_main_v39_apply, val_main_v33_apply, val_main_v32_apply, val_main_v31_apply, val_main_v30_apply,
    val_main_v29_apply, val_main_v28_apply, val_main_cst_3_apply, val_main_cst_4_apply, sigmoid_eq, slice_output, cell_read]
  unfold newHidden
  simp only [Ideal.mulf_def, Ideal.hostUnary_tanh_def]

/-! ## The whole result -/

/-- The reference's result is the step of its arguments, the gates' weights side by side and their biases end to end. -/
theorem result_eq (x0 : (⟨S4096x1024, .f32⟩ : BufTy).Contents (Elt Ideal)) (x1 : (⟨S2x4096x1024, .f32⟩ : BufTy).Contents (Elt Ideal))
    (x2 x3 : (⟨S1024x1024, .f32⟩ : BufTy).Contents (Elt Ideal)) (x4 : (⟨S1024, .f32⟩ : BufTy).Contents (Elt Ideal))
    (x5 x6 : (⟨S1024x1024, .f32⟩ : BufTy).Contents (Elt Ideal)) (x7 : (⟨S1024, .f32⟩ : BufTy).Contents (Elt Ideal))
    (x8 x9 : (⟨S1024x1024, .f32⟩ : BufTy).Contents (Elt Ideal)) (x10 : (⟨S1024, .f32⟩ : BufTy).Contents (Elt Ideal))
    (x11 x12 : (⟨S1024x1024, .f32⟩ : BufTy).Contents (Elt Ideal)) (x13 : (⟨S1024, .f32⟩ : BufTy).Contents (Elt Ideal)) :
    val_main_v43 (F := Ideal) x0 x1 x2 x3 x4 x5 x6 x7 x8 x9 x10 x11 x12 x13
      = step x0 x1 (val_main_v4 (F := Ideal) x2 x5 x8 x11) (val_main_v5 (F := Ideal) x3 x6 x9 x12) (val_main_v6 (F := Ideal) x4 x7 x10 x13) := by
  funext i
  obtain ⟨s, r, j, rfl⟩ : ∃ (s : Fin 2) (r : Fin 4096) (j : Fin 1024), i = ix3 s r j := ⟨i 0, i 1, i 2, eq_ix3 i⟩
  unfold val_main_v43 step
  by_cases hs : s.val = 0
  · rw [if_pos (show ((ix3 s r j : S2x4096x1024.Idx) 0).val = 0 from hs)]
    rw [concatenate_pair_apply_left (t := S2x4096x1024) (s₁ := S1x4096x1024) (s₂ := S1x4096x1024) (0 : Fin 3) _ _ _ (ix3 s r j) rfl (ix3 (0 : Fin 1) r j) (fun b => by
      match b with
      | ⟨0, _⟩ => exact hs.symm
      | ⟨1, _⟩ => rfl
      | ⟨2, _⟩ => rfl)]
    rw [val_main_v41_apply, show idx_main_v41 (ix3 (0 : Fin 1) r j) = ix2 r j from
      funext fun a => by match a with | ⟨0, _⟩ => rfl | ⟨1, _⟩ => rfl]
    exact hidden_read x0 x1 x2 x3 x4 x5 x6 x7 x8 x9 x10 x11 x12 x13 r j
  · rw [if_neg (show ¬ ((ix3 s r j : S2x4096x1024.Idx) 0).val = 0 from hs)]
    have hs1 : s.val = 1 := by have := s.isLt; omega
    rw [concatenate_pair_apply_right (t := S2x4096x1024) (s₁ := S1x4096x1024) (s₂ := S1x4096x1024) (0 : Fin 3) _ _ _ (ix3 s r j) rfl rfl (ix3 (0 : Fin 1) r j) (fun b hb => by
      match b with
      | ⟨0, _⟩ => exact absurd rfl hb
      | ⟨1, _⟩ => rfl
      | ⟨2, _⟩ => rfl) (by show 0 + 1 = s.val; omega)]
    rw [val_main_v42_apply, show idx_main_v42 (ix3 (0 : Fin 1) r j) = ix2 r j from
      funext fun a => by match a with | ⟨0, _⟩ => rfl | ⟨1, _⟩ => rfl]
    exact cell_read x0 x1 x2 x3 x4 x5 x6 x7 x8 x9 x10 x11 x12 x13 r j

end Cert.ReferenceIdeal.RefStep

end
-- ==== Proof.lean ====
/-
  One step of an LSTM cell on a batch of 4096 rows, as a kernel that walks the batch in sixteen blocks of
  256 rows against the plain array program.

  Both programs lay the four gates' weight matrices side by side (1024 × 4096, input-side and hidden-side) and
  their biases end to end, form the pre-activations  x·W + h·U + b,  cut them into the input, forget, output and
  candidate gates, and return the new hidden state  σ(o) · tanh(c')  and the new cell state
  c' = σ(f) · c + σ(i) · tanh(g)  as the two halves of one array. Over the extended reals the kernel's changes of
  float format are the identity, each of its matrix products into a zero accumulator and each of the reference's
  dot products is the same sum over the 1024 contracted entries, and the kernel's logistic function is the
  reference's  1 / (1 + exp (−g));  the two sides then agree term by term, with no law that would need the
  inputs to be finite. Every row of the result depends on the same row of x and of the memory only, so block t
  of the kernel's result is rows 256·t … 256·t + 255 of the reference's, and the sixteen blocks cover it.

  The three frames: the kernel at the word level and its idealization run to the end, fault nowhere and leave
  their arguments as launched (x and the memory are staged block by block and never written back; the weights
  and biases are read by the host operations only); the reference's frame is its run with the result dropped.
  The idealization rewrote no operation, so it preserves the kernel trivially.
-/
import proofs.«105680_j39101382263299_2_alg».proof.Defs
import proofs.«105680_j39101382263299_2_alg».proof.Proof.Gen.Kernel
import proofs.«105680_j39101382263299_2_alg».proof.Proof.Gen.KernelIdeal
import proofs.«105680_j39101382263299_2_alg».proof.Proof.Gen.ReferenceIdeal
import proofs.«105680_j39101382263299_2_alg».proof.Proof.Gen.Pre_finite_inputs
import proofs.«105680_j39101382263299_2_alg».proof.Proof.Gen.ReferenceIdeal.Run
import proofs.«105680_j39101382263299_2_alg».proof.Proof.Gen.ReferenceIdeal.Read
import proofs.«105680_j39101382263299_2_alg».proof.Proof.KernelRun
import proofs.«105680_j39101382263299_2_alg».proof.Proof.KernelValue
import proofs.«105680_j39101382263299_2_alg».proof.Proof.RefStep
import Idealize.ShloMosaic.Adequacy
import Idealize.ShloMosaic.Init

noncomputable section

namespace Cert.Proof

open Idealize.ShloMosaic Idealize.SL.Sem

theorem frame_kernel : Cert.frame_Kernel := fun m ρ _ => Cert.Kernel.Frm.frame m ρ
theorem frame_ideal : Cert.frame_KernelIdeal := fun m ρ _ => Cert.KernelIdeal.Frm.frame m ρ
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the result array at the step of the arguments. -/
theorem algebraic : Cert.algebraic_KernelIdeal_ReferenceIdeal := by
  intro m ρ m' ρ' _ hagree
  refine ⟨fun c => Cert.KernelIdeal.Val.result m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13⟩ := hagree c
  rw [Cert.ReferenceIdeal.Read.val_main_v43_eq, Cert.ReferenceIdeal.RefStep.result_eq, h0, h1, h2, h3, h4, h5, h6, h7, h8, h9, h10, h11, h12, h13]
  rfl

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
